-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S262144x64 .f32) (main_arg1 : FVec F S64x64 .f32) (main_arg2 : FVec F S64 .f32) (main_arg3 : FVec F S64x64 .f32) (main_arg4 : FVec F S64 .f32) (main_arg5 : FVec F S64x1 .f32) (main_arg6 : FVec F S1 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S32x64 : Shape := ⟨2, ![32, 64]⟩
abbrev S64x32 : Shape := ⟨2, ![64, 32]⟩
abbrev S65536x128 : Shape := ⟨2, ![65536, 128]⟩
abbrev S4096x64 : Shape := ⟨2, ![4096, 64]⟩
abbrev S1024x128 : Shape := ⟨2, ![1024, 128]⟩
abbrev S4096x32 : Shape := ⟨2, ![4096, 32]⟩
abbrev S262144x32 : Shape := ⟨2, ![262144, 32]⟩

abbrev nBuf : Space → Nat
  | .hbm => 17
  | .vmem => 11
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S64x64, .f32⟩
  | .hbm, ⟨11, _⟩ => ⟨S64x64, .bf16⟩
  | .hbm, ⟨12, _⟩ => ⟨S32x64, .f32⟩
  | .hbm, ⟨13, _⟩ => ⟨S64x32, .f32⟩
  | .hbm, ⟨14, _⟩ => ⟨S64x32, .bf16⟩
  | .hbm, ⟨15, _⟩ => ⟨S65536x128, .f32⟩
  | .hbm, ⟨16, _⟩ => ⟨S262144x32, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S64x64, .bf16⟩
  | .local _ .vmem, ⟨8, _⟩ => ⟨S64x32, .bf16⟩
  | .local _ .vmem, ⟨9, _⟩ => ⟨S1024x128, .f32⟩
  | .local _ .vmem, ⟨10, _⟩ => ⟨S1024x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64_S1x64 : S64.ShapeCasts S1x64
  shapeCasts_S64x1_S1x64 : S64x1.ShapeCasts S1x64
  transposes_S64x64_S64x64_1_0 : S64x64.Transposes [1, 0] S64x64
  bitsLt_bf16_f32 : FTy.bits .bf16 < FTy.bits .f32
  slices_S64x64_S32x64_0_0 : S64x64.Slices ![0, 0] S32x64
  transposes_S32x64_S64x32_1_0 : S32x64.Transposes [1, 0] S64x32
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  natLt_1_32 : 1 < 32
  shapeCasts_S64x64_S64x64 : S64x64.ShapeCasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S4096x32_S1024x128 : S4096x32.ShapeCasts S1024x128
  inb_S1024x128_S1024x128_0_0 : ∀ a, (![0, 0] : Fin 2 → Nat) a + S1024x128.size a ≤ S1024x128.size a
  h_S1024x128 : 0 < S1024x128.numel
  shapeCasts_S65536x128_S262144x32 : S65536x128.ShapeCasts S262144x32
  dot_S4096x64_S64x64_S4096x64_1_0_0_1_n_n_wf : DotDims.WF S4096x64 S64x64 S4096x64 [1] [0] [0] [1] [] []
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S262144x32 : Shape := ⟨2, ![262144, 32]⟩
abbrev S_ : Shape := ⟨0, ![]⟩
abbrev S1x64 : Shape := ⟨2, ![1, 64]⟩
abbrev S262144x1 : Shape := ⟨2, ![262144, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S262144x32, .f32⟩
  | .hbm, ⟨8, _⟩ => ⟨S262144x32, .f32⟩
  | .hbm, ⟨9, _⟩ => ⟨S262144x64, .f32⟩
  | .hbm, ⟨10, _⟩ => ⟨S_, .f32⟩
  | .hbm, ⟨11, _⟩ => ⟨S262144x32, .f32⟩
  | .hbm, ⟨12, _⟩ => ⟨S262144x64, .f32⟩
  | .hbm, ⟨13, _⟩ => ⟨S1x64, .f32⟩
  | .hbm, ⟨14, _⟩ => ⟨S262144x64, .f32⟩
  | .hbm, ⟨15, _⟩ => ⟨S262144x64, .f32⟩
  | .hbm, ⟨16, _⟩ => ⟨S_, .f32⟩
  | .hbm, ⟨17, _⟩ => ⟨S262144x64, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .i1⟩
  | .hbm, ⟨22, _⟩ => ⟨S_, .f32⟩
  | .hbm, ⟨23, _⟩ => ⟨S262144x64, .f32⟩
  | .hbm, ⟨24, _⟩ => ⟨S262144x64, .f32⟩
  | .hbm, ⟨25, _⟩ => ⟨S1x64, .f32⟩
  | .hbm, ⟨26, _⟩ => ⟨S262144x64, .f32⟩
  | .hbm, ⟨27, _⟩ => ⟨S262144x64, .f32⟩
  | .hbm, ⟨28, _⟩ => ⟨S_, .f32⟩
  | .hbm, ⟨29, _⟩ => ⟨S262144x64, .f32⟩
  | .hbm, ⟨30, _⟩ => ⟨S262144x64, .f32⟩
  | .hbm, ⟨31, _⟩ => ⟨S_, .f32⟩
  | .hbm, ⟨32, _⟩ => ⟨S262144x64, .f32⟩
  | .hbm, ⟨33, _⟩ => ⟨S262144x64, .i1⟩
  | .hbm, ⟨34, _⟩ => ⟨S_, .f32⟩
  | .hbm, ⟨35, _⟩ => ⟨S262144x64, .f32⟩
  | .hbm, ⟨36, _⟩ => ⟨S262144x1, .f32⟩
  | .hbm, ⟨37, _⟩ => ⟨S1x1, .f32⟩
  | .hbm, ⟨38, _⟩ => ⟨S262144x1, .f32⟩
  | .hbm, ⟨39, _⟩ => ⟨S262144x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S262144x1, .f32⟩
  | .hbm, ⟨44, _⟩ => ⟨S262144x64, .f32⟩
  | .hbm, ⟨45, _⟩ => ⟨S_, .f32⟩
  | .hbm, ⟨46, _⟩ => ⟨S262144x64, .f32⟩
  | .hbm, ⟨47, _⟩ => ⟨S262144x64, .f32⟩
  | .hbm, ⟨48, _⟩ => ⟨S262144x64, .f32⟩
  | .hbm, ⟨49, _⟩ => ⟨S_, .f32⟩
  | .hbm, ⟨50, _⟩ => ⟨S262144x64, .f32⟩
  | .hbm, ⟨51, _⟩ => ⟨S262144x64, .f32⟩
  | .hbm, ⟨52, _⟩ => ⟨S262144x64, .f32⟩
  | .hbm, ⟨53, _⟩ => ⟨S262144x32, .f32⟩
  | .hbm, ⟨54, _⟩ => ⟨S262144x32, .f32⟩
  | .hbm, ⟨55, _⟩ => ⟨S262144x64, .f32⟩
  | .hbm, ⟨56, _⟩ => ⟨S_, .f32⟩
  | .hbm, ⟨57, _⟩ => ⟨S262144x32, .f32⟩
  | .hbm, ⟨58, _⟩ => ⟨S_, .f32⟩
  | .hbm, ⟨59, _⟩ => ⟨S262144x32, .f32⟩
  | .hbm, ⟨60, _⟩ => ⟨S262144x64, .f32⟩
  | .hbm, ⟨61, _⟩ => ⟨S1x64, .f32⟩
  | .hbm, ⟨62, _⟩ => ⟨S262144x64, .f32⟩
  | .hbm, ⟨63, _⟩ => ⟨S262144x64, .f32⟩
  | .hbm, ⟨64, _⟩ => ⟨S_, .f32⟩
  | .hbm, ⟨65, _⟩ => ⟨S262144x64, .f32⟩
  | .hbm, ⟨66, _⟩ => ⟨S262144x64, .f32⟩
  | .hbm, ⟨67, _⟩ => ⟨S_, .f32⟩
  | .hbm, ⟨68, _⟩ => ⟨S262144x64, .f32⟩
  | .hbm, ⟨69, _⟩ => ⟨S262144x64, .i1⟩
  | .hbm, ⟨70, _⟩ => ⟨S_, .f32⟩
  | .hbm, ⟨71, _⟩ => ⟨S262144x64, .f32⟩
  | .hbm, ⟨72, _⟩ => ⟨S_, .f32⟩
  | .hbm, ⟨73, _⟩ => ⟨S262144x64, .f32⟩
  | .hbm, ⟨74, _⟩ => ⟨S262144x64, .i1⟩
  | .hbm, ⟨75, _⟩ => ⟨S_, .f32⟩
  | .hbm, ⟨76, _⟩ => ⟨S262144x64, .f32⟩
  | .hbm, ⟨77, _⟩ => ⟨S262144x64, .f32⟩
  | .hbm, ⟨78, _⟩ => ⟨S1x64, .f32⟩
  | .hbm, ⟨79, _⟩ => ⟨S262144x64, .f32⟩
  | .hbm, ⟨80, _⟩ => ⟨S262144x64, .f32⟩
  | .hbm, ⟨81, _⟩ => ⟨S_, .f32⟩
  | .hbm, ⟨82, _⟩ => ⟨S262144x64, .f32⟩
  | .hbm, ⟨83, _⟩ => ⟨S262144x64, .f32⟩
  | .hbm, ⟨84, _⟩ => ⟨S_, .f32⟩
  | .hbm, ⟨85, _⟩ => ⟨S262144x64, .f32⟩
  | .hbm, ⟨86, _⟩ => ⟨S262144x64, .i1⟩
  | .hbm, ⟨87, _⟩ => ⟨S_, .f32⟩
  | .hbm, ⟨88, _⟩ => ⟨S262144x64, .f32⟩
  | .hbm, ⟨89, _⟩ => ⟨S_, .f32⟩
  | .hbm, ⟨90, _⟩ => ⟨S262144x64, .f32⟩
  | .hbm, ⟨91, _⟩ => ⟨S262144x64, .i1⟩
  | .hbm, ⟨92, _⟩ => ⟨S_, .f32⟩
  | .hbm, ⟨93, _⟩ => ⟨S262144x64, .f32⟩
  | .hbm, ⟨94, _⟩ => ⟨S262144x1, .f32⟩
  | .hbm, ⟨95, _⟩ => ⟨S1x1, .f32⟩
  | .hbm, ⟨96, _⟩ => ⟨S262144x1, .f32⟩
  | .hbm, ⟨97, _⟩ => ⟨S262144x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S262144x1, .f32⟩
  | .hbm, ⟨102, _⟩ => ⟨S262144x64, .f32⟩
  | .hbm, ⟨103, _⟩ => ⟨S_, .f32⟩
  | .hbm, ⟨104, _⟩ => ⟨S262144x64, .f32⟩
  | .hbm, ⟨105, _⟩ => ⟨S262144x64, .f32⟩
  | .hbm, ⟨106, _⟩ => ⟨S262144x64, .f32⟩
  | .hbm, ⟨107, _⟩ => ⟨S_, .f32⟩
  | .hbm, ⟨108, _⟩ => ⟨S262144x64, .f32⟩
  | .hbm, ⟨109, _⟩ => ⟨S262144x64, .f32⟩
  | .hbm, ⟨110, _⟩ => ⟨S262144x64, .f32⟩
  | .hbm, ⟨111, _⟩ => ⟨S262144x32, .f32⟩
  | .hbm, ⟨112, _⟩ => ⟨S262144x32, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S262144x32, .f32⟩
  | .hbm, ⟨117, _⟩ => ⟨S262144x32, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_cst : Ref sig .tc := ⟨.hbm, 64, rfl⟩
abbrev main_call2_v0 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_cst : Ref sig .tc := ⟨.hbm, 81, rfl⟩
abbrev main_call3_v0 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_21 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_22 : Ref sig .tc := ⟨.hbm, 113, rfl⟩
abbrev main_v75 : Ref sig .tc := ⟨.hbm, 114, rfl⟩
abbrev main_cst_23 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  slices_S262144x64_S262144x32_0_0 : S262144x64.Slices ![0, 0] S262144x32
  slices_S262144x64_S262144x32_0_32 : S262144x64.Slices ![0, 32] S262144x32
  concatenates_S262144x32_S262144x32_S262144x64_d1 : Shape.Concatenates [S262144x32, S262144x32] S262144x64 1
  bcast_S_S262144x32 : S_.BroadcastsInDim S262144x32 (![] : Fin 0 → Fin S262144x32.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S_d0_1 : S262144x1.ReducesTo [0, 1] S_
  h_S_ : 0 < S_.numel
  bcast_S_S262144x1 : S_.BroadcastsInDim S262144x1 (![] : Fin 0 → Fin S262144x1.rank)
  reducesTo_S262144x32_S_d0_1 : S262144x32.ReducesTo [0, 1] S_
  dot_S262144x64_S64x64_S262144x64_1_0_0_1_n_n_wf : DotDims.WF S262144x64 S64x64 S262144x64 [1] [0] [0] [1] [] []
  dot_S262144x64_S64x1_S262144x1_1_0_0_1_n_n_wf : DotDims.WF S262144x64 S64x1 S262144x1 [1] [0] [0] [1] [] []
  dot_S262144x1_S64x1_S262144x64_1_1_0_0_n_n_wf : DotDims.WF S262144x1 S64x1 S262144x64 [1] [1] [0] [0] [] []
  dot_S262144x64_S64x64_S262144x64_1_1_0_0_n_n_wf : DotDims.WF S262144x64 S64x64 S262144x64 [1] [1] [0] [0] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def dot_S262144x1_S64x1_S262144x64_1_1_0_0_n_n : DotDims S262144x1 S64x1 S262144x64 where
  lhsContracting := [1]
  rhsContracting := [1]
  lhsNonContracting := [0]
  rhsNonContracting := [0]
  lhsBatch := []
  rhsBatch := []
  wf := dot_S262144x1_S64x1_S262144x64_1_1_0_0_n_n_wf
def dot_S262144x64_S64x64_S262144x64_1_1_0_0_n_n : DotDims S262144x64 S64x64 S262144x64 where
  lhsContracting := [1]
  rhsContracting := [1]
  lhsNonContracting := [0]
  rhsNonContracting := [0]
  lhsBatch := []
  rhsBatch := []
  wf := dot_S262144x64_S64x64_S262144x64_1_1_0_0_n_n_wf

class Facts : Prop extends Facts₀ where

variable [Facts]
-- ==== Proof.Spec.lean ====
/-
  The function both programs compute, one batch row at a time.

  A row `x` (64 numbers: the 32 positions followed by the 32 velocities) goes through a three-layer ReLU
  network `L(x) = relu(relu(x·W1 + b1)·W2 + b2)·W3 + b3`.  Write `z1 = x·W1 + b1`, `h1 = relu z1`,
  `z2 = h1·W2 + b2`.  Since the derivative of `relu` is taken to be the indicator of `z > 0` and that indicator
  is not differentiated again, the second-order term of the Euler–Lagrange residual vanishes identically, and the
  result is `0 - ∂L/∂q`, with

      ∂L/∂x_j = Σ_k [z1_k > 0] · (Σ_i [z2_i > 0] · W3_i · W2_{k,i}) · W1_{j,k}

  read at the first 32 coordinates `j`.  `gate z a` is the indicator `[z > 0]` applied to `a`; a product with
  the indicator as a number (`0` or `1`), a `select` on the comparison and `max z 0` are all instances of it, on
  every extended real (`0 · ±∞ = 0` there), so no finiteness is needed.
-/
import Idealize.ShloMosaic.PureOps.Ideal.Laws
import Idealize.ShloMosaic.Lib.ValueIdx

noncomputable section

namespace Cert.MlpGrad

open Idealize.ShloMosaic Idealize.ShloMosaic.ValueIdx

/-- `a` where `z` is positive, `0` elsewhere. -/
def gate (z a : EReal) : EReal := if 0 < z then a else 0

/-- One affine layer on one row: `(x·W + b)_l`. -/
def lin (x : Fin 64 → EReal) (W : Fin 64 → Fin 64 → EReal) (b : Fin 64 → EReal) (l : Fin 64) : EReal :=
  (∑ p : Fin 64, x p * W p l) + b l

/-- The second pre-activation of a row: `z2 = relu(z1)·W2 + b2`. -/
def z2 (x : Fin 64 → EReal) (W1 : Fin 64 → Fin 64 → EReal) (b1 : Fin 64 → EReal)
    (W2 : Fin 64 → Fin 64 → EReal) (b2 : Fin 64 → EReal) (i : Fin 64) : EReal :=
  lin (fun l => gate (lin x W1 b1 l) (lin x W1 b1 l)) W2 b2 i

/-- The gradient reaching the first hidden layer: `Σ_i [z2_i > 0] · W3_i · B_{i,k}`, `B` the second layer's
    weights as the backward pass reads them (`B i k = W2 k i`). -/
def back1 (x : Fin 64 → EReal) (W1 : Fin 64 → Fin 64 → EReal) (b1 : Fin 64 → EReal)
    (W2 : Fin 64 → Fin 64 → EReal) (b2 : Fin 64 → EReal) (W3 : Fin 64 → EReal)
    (B : Fin 64 → Fin 64 → EReal) (k : Fin 64) : EReal :=
  ∑ i : Fin 64, gate (z2 x W1 b1 W2 b2 i) (W3 i) * B i k

/-- One entry of the result on one row: `0 - Σ_k [z1_k > 0] · back1_k · w_k`, `w` the row of the first
    layer's weights that belongs to the differentiated coordinate (`w k = W1 j k`). -/
def rowOut (x : Fin 64 → EReal) (W1 : Fin 64 → Fin 64 → EReal) (b1 : Fin 64 → EReal)
    (W2 : Fin 64 → Fin 64 → EReal) (b2 : Fin 64 → EReal) (W3 : Fin 64 → EReal)
    (B : Fin 64 → Fin 64 → EReal) (w : Fin 64 → EReal) : EReal :=
  0 - ∑ k : Fin 64, gate (lin x W1 b1 k) (back1 x W1 b1 W2 b2 W3 B k) * w k

/-- The whole result: entry `(r, j)` is `rowOut` of row `r` of the batch against row `j` of `W1`. -/
def G (X : (⟨2, ![262144, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 1]⟩ : Shape).Idx → EReal) :
    (⟨2, ![262144, 32]⟩ : Shape).Idx → EReal := fun i =>
  rowOut (fun p => X (ix2 (⟨(i 0).val, idx2_lt0 i⟩ : Fin 262144) p)) (fun p l => W1 (ix2 p l)) (fun l => b1 (ix1 l))
    (fun p l => W2 (ix2 p l)) (fun l => b2 (ix1 l)) (fun l => W3 (ix2 l (0 : Fin 1)))
    (fun i' k => W2 (ix2 k i'))
    (fun k => W1 (ix2 (⟨(i 1).val, Nat.lt_trans (idx2_lt1 i) (by decide)⟩ : Fin 64) k))

theorem G_apply (X : (⟨2, ![262144, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 1]⟩ : Shape).Idx → EReal)
    (r : Fin 262144) (j : Fin 32) :
    G X W1 b1 W2 b2 W3 (ix2 r j) =
      rowOut (fun p => X (ix2 r p)) (fun p l => W1 (ix2 p l)) (fun l => b1 (ix1 l))
        (fun p l => W2 (ix2 p l)) (fun l => b2 (ix1 l)) (fun l => W3 (ix2 l (0 : Fin 1)))
        (fun i' k => W2 (ix2 k i')) (fun k => W1 (ix2 (⟨j.val, Nat.lt_trans j.isLt (by decide)⟩ : Fin 64) k)) := rfl

/-! ## The indicator in its three spellings -/

/-- The comparison `z > 0`, widened to a word and converted to a float, is `1` or `0`. -/
theorem mask_eq (z : EReal) :
    ((((Ideal.cmp .ogt z 0).setWidth 32).toInt : ℝ) : EReal) = if 0 < z then 1 else 0 := by
  unfold Ideal.cmp
  by_cases h : (0 : EReal) < z
  · rw [if_pos h]; simp [h]
  · rw [if_neg h]; simp [h]

/-- A product with the indicator on the right: `z · [z > 0] = relu z`. -/
theorem mul_mask (z : EReal) :
    z * ((((Ideal.cmp .ogt z 0).setWidth 32).toInt : ℝ) : EReal) = gate z z := by
  rw [mask_eq]; unfold gate
  by_cases h : (0 : EReal) < z
  · rw [if_pos h, if_pos h, mul_one]
  · rw [if_neg h, if_neg h, mul_zero]

/-- A product with the indicator on the left. -/
theorem mask_mul (z a : EReal) :
    ((((Ideal.cmp .ogt z 0).setWidth 32).toInt : ℝ) : EReal) * a = gate z a := by
  rw [mask_eq]; unfold gate
  by_cases h : (0 : EReal) < z
  · rw [if_pos h, if_pos h, one_mul]
  · rw [if_neg h, if_neg h, zero_mul]

/-- A `select` on the comparison against zero. -/
theorem select_gate (z a : EReal) : Scalar.select (Ideal.cmp .ogt z 0) a 0 = gate z a := by
  unfold Ideal.cmp gate
  by_cases h : (0 : EReal) < z
  · rw [if_pos h]; simp only [h, decide_true]; exact select_one a 0
  · rw [if_neg h]; simp only [h, decide_false]; exact select_zero a 0

/-- `relu` as a maximum. -/
theorem max_gate (z : EReal) : max z 0 = gate z z := by
  unfold gate
  by_cases h : (0 : EReal) < z
  · rw [if_pos h, max_eq_left (le_of_lt h)]
  · rw [if_neg h, max_eq_right (not_lt.mp h)]

/-- The float `1.0`. -/
theorem ofBits_one : Ideal.ofBits .f32 0x3F800000#32 = 1 := by
  simp [Ideal.ofBits, Ideal.ieee, -EReal.coe_mul]; norm_num

end Cert.MlpGrad

end
-- ==== Proof.KernelBody.lean ====
/-
  What the kernel body stores, entry by entry.

  At one grid point the body holds 4096 batch rows `x`.  It forms `z1 = x·W1 + b1`, the indicator `s1 = [z1 > 0]` as a
  float (the comparison widened and converted), `h1 = z1·s1`, `z2 = h1·W2 + b2`, `s2 = [z2 > 0]`, then the backward pass
  `g2 = s2·W3`, `d1 = g2·W2ᵀ`, `g1 = s1·d1`, `dq = g1·W1qᵀ`, and stores `0 - dq`, a [4096, 32] block, re-laid in row-major
  order as [1024, 128].  Entry `(p, q)` of what is stored is therefore entry `(4p + q/32, q mod 32)` of `0 - dq`, which is
  `Cert.MlpGrad.rowOut` of row `4p + q/32` of the block: every product with an indicator is a `gate`, every matrix
  product into a zero accumulator a plain sum, and the roundings to bf16 are the identity on extended reals.
-/
import proofs.«125662_j52372831208004_2_alg».proof.Proof.Gen.KernelIdeal.Skeleton
import proofs.«125662_j52372831208004_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.MlpGrad

/-- A [4096, 64] × [64, 64] product into a zero accumulator, at `(r, c)`: the sum over the shared axis. -/
theorem mm64_apply {φ₁ φ₂ : FTy} (prec : Option ContractPrecision) (a : FVec Ideal S4096x64 φ₁) (b : FVec Ideal S64x64 φ₂)
    (r : Fin 4096) (c : Fin 64) :
    matmul dot_S4096x64_S64x64_S4096x64_1_0_0_1_n_n prec a b (constant S4096x64 .f32 0x00000000#32) (ix2 r c)
      = ∑ k : Fin 64, a (ix2 r k) * b (ix2 k c) := by
  refine (Ideal.matmul_constant_zero_apply dot_S4096x64_S64x64_S4096x64_1_0_0_1_n_n prec a b (ix2 r c)).trans ?_
  rw [← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 r c) ((ValueIdx.contrEquiv1 dot_S4096x64_S64x64_S4096x64_1_0_0_1_n_n 64 rfl rfl).symm k) = ix2 r k :=
    funext fun ax => Fin.ext (by
      match ax with
      | ⟨0, _⟩ =>
        show (dot_S4096x64_S64x64_S4096x64_1_0_0_1_n_n.lhsIdx (ix2 r c) _ 0).val = r.val
        unfold DotDims.lhsIdx
        rw [dif_neg (show ¬(0 : Fin S4096x64.rank) ∈ dot_S4096x64_S64x64_S4096x64_1_0_0_1_n_n.lhsBatch by decide),
          dif_pos (show (0 : Fin S4096x64.rank) ∈ dot_S4096x64_S64x64_S4096x64_1_0_0_1_n_n.lhsNonContracting by decide)]
        rfl
      | ⟨1, _⟩ => exact (dot_S4096x64_S64x64_S4096x64_1_0_0_1_n_n.lhsIdx_val_of_single rfl _ _).trans hk)
  have er : dot_S4096x64_S64x64_S4096x64_1_0_0_1_n_n.rhsIdx (ix2 r c) ((ValueIdx.contrEquiv1 dot_S4096x64_S64x64_S4096x64_1_0_0_1_n_n 64 rfl rfl).symm k) = ix2 k c :=
    funext fun ax => Fin.ext (by
      match ax with
      | ⟨0, _⟩ => exact (dot_S4096x64_S64x64_S4096x64_1_0_0_1_n_n.rhsIdx_val_of_single rfl _ _).trans hk
      | ⟨1, _⟩ =>
        show (dot_S4096x64_S64x64_S4096x64_1_0_0_1_n_n.rhsIdx (ix2 r c) _ 1).val = c.val
        unfold DotDims.rhsIdx
        rw [dif_neg (show ¬(1 : Fin S64x64.rank) ∈ dot_S4096x64_S64x64_S4096x64_1_0_0_1_n_n.rhsBatch by decide),
          dif_pos (show (1 : Fin S64x64.rank) ∈ dot_S4096x64_S64x64_S4096x64_1_0_0_1_n_n.rhsNonContracting by decide)]
        rfl)
  rw [el, er]

/-- A [4096, 64] × [64, 32] product into a zero accumulator, at `(r, c)`. -/
theorem mm32_apply {φ₁ φ₂ : FTy} (prec : Option ContractPrecision) (a : FVec Ideal S4096x64 φ₁) (b : FVec Ideal S64x32 φ₂)
    (r : Fin 4096) (c : Fin 32) :
    matmul dot_S4096x64_S64x32_S4096x32_1_0_0_1_n_n prec a b (constant S4096x32 .f32 0x00000000#32) (ix2 r c)
      = ∑ k : Fin 64, a (ix2 r k) * b (ix2 k c) := by
  refine (Ideal.matmul_constant_zero_apply dot_S4096x64_S64x32_S4096x32_1_0_0_1_n_n prec a b (ix2 r c)).trans ?_
  rw [← Equiv.sum_comp (ValueIdx.contrEquiv1 dot_S4096x64_S64x32_S4096x32_1_0_0_1_n_n 64 rfl rfl).symm]
  refine Finset.sum_congr rfl fun k _ => ?_
  have hk := ValueIdx.contrEquiv1_symm_val dot_S4096x64_S64x32_S4096x32_1_0_0_1_n_n 64 rfl rfl k
  have el : dot_S4096x64_S64x32_S4096x32_1_0_0_1_n_n.lhsIdx (ix2 r c) ((ValueIdx.contrEquiv1 dot_S4096x64_S64x32_S4096x32_1_0_0_1_n_n 64 rfl rfl).symm k) = ix2 r k :=
    funext fun ax => Fin.ext (by
      match ax with
      | ⟨0, _⟩ =>
        show (dot_S4096x64_S64x32_S4096x32_1_0_0_1_n_n.lhsIdx (ix2 r c) _ 0).val = r.val
        unfold DotDims.lhsIdx
        rw [dif_neg (show ¬(0 : Fin S4096x64.rank) ∈ dot_S4096x64_S64x32_S4096x32_1_0_0_1_n_n.lhsBatch by decide),
          dif_pos (show (0 : Fin S4096x64.rank) ∈ dot_S4096x64_S64x32_S4096x32_1_0_0_1_n_n.lhsNonContracting by decide)]
        rfl
      | ⟨1, _⟩ => exact (dot_S4096x64_S64x32_S4096x32_1_0_0_1_n_n.lhsIdx_val_of_single rfl _ _).trans hk)
  have er : dot_S4096x64_S64x32_S4096x32_1_0_0_1_n_n.rhsIdx (ix2 r c) ((ValueIdx.contrEquiv1 dot_S4096x64_S64x32_S4096x32_1_0_0_1_n_n 64 rfl rfl).symm k) = ix2 k c :=
    funext fun ax => Fin.ext (by
      match ax with
      | ⟨0, _⟩ => exact (dot_S4096x64_S64x32_S4096x32_1_0_0_1_n_n.rhsIdx_val_of_single rfl _ _).trans hk
      | ⟨1, _⟩ =>
        show (dot_S4096x64_S64x32_S4096x32_1_0_0_1_n_n.rhsIdx (ix2 r c) _ 1).val = c.val
        unfold DotDims.rhsIdx
        rw [dif_neg (show ¬(1 : Fin S64x32.rank) ∈ dot_S4096x64_S64x32_S4096x32_1_0_0_1_n_n.rhsBatch by decide),
          dif_pos (show (1 : Fin S64x32.rank) ∈ dot_S4096x64_S64x32_S4096x32_1_0_0_1_n_n.rhsNonContracting by decide)]
        rfl)
  rw [el, er]

/-- An affine layer on the block: the product plus the bias row broadcast down the block, at `(r, l)`. -/
theorem lin_apply {φ₁ φ₂ : FTy} (prec : Option ContractPrecision) (a : FVec Ideal S4096x64 φ₁) (W : FVec Ideal S64x64 φ₂)
    (b : FVec Ideal S1x64 .f32) (h2 : S1x64.Broadcasts S4096x64) (r : Fin 4096) (l : Fin 64) :
    addf (matmul dot_S4096x64_S64x64_S4096x64_1_0_0_1_n_n prec a W (constant S4096x64 .f32 0x00000000#32))
        (broadcastTo S4096x64 b h2) (ix2 r l)
      = (∑ k : Fin 64, a (ix2 r k) * W (ix2 k l)) + b (ix2 (0 : Fin 1) l) := by
  rw [addf_apply, mm64_apply (φ₁ := φ₁) (φ₂ := φ₂) prec a W r l, broadcastTo_1b_ab_apply]

/-- The indicator of `z > 0` as the body forms it: compare, widen, convert. -/
theorem mask_apply (z : FVec Ideal S4096x64 .f32) (h : 1 < 32) (r : Fin 4096) (c : Fin 64) :
    (sitofp .f32 (extui 32 (cmpf .ogt z (broadcast S4096x64 (Scalar.ofBits (F := Ideal) .f32 0x00000000#32))) h) : FVec Ideal S4096x64 .f32) (ix2 r c)
      = ((((Ideal.cmp .ogt (z (ix2 r c)) 0).setWidth 32).toInt : ℝ) : EReal) := by
  show ((((Ideal.cmp .ogt (z (ix2 r c)) (Ideal.ofBits .f32 0x00000000#32)).setWidth 32).toInt : ℝ) : EReal) = _
  rw [Ideal.ofBits_zero_f32]

/-- The [4096, 32] block `dq` before it is subtracted from zero, at `(r, j)`. -/
theorem pay2_apply (x0 : Vec Ideal S4096x64 .f32) (x1 : Vec Ideal S64x64 .f32) (x2 : Vec Ideal S1x64 .f32)
    (x3 : Vec Ideal S64x64 .f32) (x4 : Vec Ideal S1x64 .f32) (x5 : Vec Ideal S1x64 .f32) (x6 : Vec Ideal S64x64 .bf16)
    (x7 : Vec Ideal S64x32 .bf16) (r : Fin 4096) (j : Fin 32) :
    k0_pay2 (F := Ideal) x0 x1 x2 x3 x4 x5 x6 x7 (ix2 r j)
      = ∑ k : Fin 64, gate (lin (fun p => x0 (ix2 r p)) (fun p l => x1 (ix2 p l)) (fun l => x2 (ix2 (0 : Fin 1) l)) k)
          (back1 (fun p => x0 (ix2 r p)) (fun p l => x1 (ix2 p l)) (fun l => x2 (ix2 (0 : Fin 1) l))
            (fun p l => x3 (ix2 p l)) (fun l => x4 (ix2 (0 : Fin 1) l)) (fun l => x5 (ix2 (0 : Fin 1) l))
            (fun i k' => x6 (ix2 i k')) k) * x7 (ix2 k j) := by
  unfold k0_pay2
  simp only [shapeCast_self]
  refine (mm32_apply (φ₁ := .bf16) (φ₂ := .bf16) none _ _ r j).trans (Finset.sum_congr rfl fun k _ => ?_)
  refine congrArg (· * x7 (ix2 k j)) ?_
  rw [truncf_apply, mulf_apply, mask_apply, lin_apply (φ₁ := .f32) (φ₂ := .f32) (some ContractPrecision.fp32), mask_mul]
  refine congrArg (gate _) ?_
  refine (mm64_apply (φ₁ := .bf16) (φ₂ := .bf16) none _ _ r k).trans (Finset.sum_congr rfl fun i _ => ?_)
  refine congrArg (· * x6 (ix2 i k)) ?_
  rw [truncf_apply, mulf_apply, mask_apply, broadcastTo_1b_ab_apply, mask_mul]
  refine congrArg (gate · _) ?_
  rw [lin_apply (φ₁ := .f32) (φ₂ := .f32) (some ContractPrecision.fp32)]
  refine congrArg (· + x4 (ix2 (0 : Fin 1) i)) (Finset.sum_congr rfl fun l _ => congrArg (· * x3 (ix2 l i)) ?_)
  rw [mulf_apply, mask_apply, lin_apply (φ₁ := .f32) (φ₂ := .f32) (some ContractPrecision.fp32), mul_mask]
  rfl

/-- What the body stores at `(p, q)` of the [1024, 128] buffer: `rowOut` of row `4p + q/32` of the block against column
    `q mod 32` of the last weight block. -/
theorem pay_apply (x0 : Vec Ideal S4096x64 .f32) (x1 : Vec Ideal S64x64 .f32) (x2 : Vec Ideal S1x64 .f32)
    (x3 : Vec Ideal S64x64 .f32) (x4 : Vec Ideal S1x64 .f32) (x5 : Vec Ideal S1x64 .f32) (x6 : Vec Ideal S64x64 .bf16)
    (x7 : Vec Ideal S64x32 .bf16) (p : Fin 1024) (q : Fin 128) (r : Fin 4096) (j : Fin 32)
    (hr : r.val = 4 * p.val + q.val / 32) (hj : j.val = q.val % 32) :
    k0_pay1 (F := Ideal) (k0_pay2 x0 x1 x2 x3 x4 x5 x6 x7) (k0_pay3 (F := Ideal)) (ix2 p q)
      = rowOut (fun p' => x0 (ix2 r p')) (fun p' l => x1 (ix2 p' l)) (fun l => x2 (ix2 (0 : Fin 1) l))
          (fun p' l => x3 (ix2 p' l)) (fun l => x4 (ix2 (0 : Fin 1) l)) (fun l => x5 (ix2 (0 : Fin 1) l))
          (fun i k => x6 (ix2 i k)) (fun k => x7 (ix2 k j)) := by
  unfold k0_pay1
  refine (shapeCast_apply _ _ (ix2 p q) (ix2 r j) (by
    rw [Shape.rowMajor_val_two, Shape.rowMajor_val_two]
    show r.val * 32 + j.val = p.val * 128 + q.val
    omega)).trans ?_
  rw [subf_apply, pay2_apply]
  unfold rowOut k0_pay3
  show Ideal.ofBits .f32 0x00000000#32 - _ = _
  rw [Ideal.ofBits_zero_f32]

end Cert.KernelIdeal.Body

end
-- ==== Proof.KernelValue.lean ====
/-
  The idealized kernel's result as one function of its arguments.

  The grid has 64 points; point `t` stages rows `4096·t … 4096·t + 4095` of the batch and the whole of every weight
  array, and writes back rows `1024·t … 1024·t + 1023` of a [65536, 128] array, which the host then reads as
  [262144, 32] in row-major order.  The weight arrays the body sees are host re-layouts of the arguments: `b1`, `b2`
  as rows, `W3` as a row, `W2` transposed, and the first 32 rows of `W1` transposed (the roundings to bf16 are the
  identity on extended reals).  Entry `(p, q)` of block `t` is `rowOut` of batch row `4096·t + 4p + q/32` against row
  `q mod 32` of `W1` (Proof/KernelBody.lean), which is entry `(4·(1024·t + p) + q/32, q mod 32)` of `Cert.MlpGrad.G`;
  the blocks tile the array, and the final reshape puts entry `(R, j)` of `G` at `(R, j)`.
-/
import proofs.«125662_j52372831208004_2_alg».proof.Proof.Gen.KernelIdeal.Frame
import proofs.«125662_j52372831208004_2_alg».proof.Proof.KernelBody
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.MlpGrad

variable (m : (ℓ : Loc nD τ sig) → Buf (Elt Ideal) ℓ) (ρ : Dev nD → PrngReg)

theorem hz : (![0, 0] : Fin 2 → Nat) = fun _ => 0 := funext fun a => by fin_cases a <;> rfl

/-- The result as a function of the arguments at launch. -/
abbrev Gm (c : Dev nD) : S262144x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The same numbers laid out as the kernel writes them: [65536, 128], four result rows to a row. -/
def G8 (c : Dev nD) : S65536x128.Idx → EReal := fun i =>
  Gm m c (ix2 (⟨4 * (i 0).val + (i 1).val / 32, by have h0 := idx2_lt0 i; have h1 := idx2_lt1 i; omega⟩ : Fin 262144)
    (⟨(i 1).val % 32, Nat.mod_lt _ (by decide)⟩ : Fin 32))

/-! ## The arrays the region finds: host re-layouts of the arguments -/

theorem V_v0 (c : Dev nD) : (V m c main_v0 : S1x64.Idx → EReal)
    = shapeCast S1x64 (m ((c : Thread nD τ).loc main_arg2) : S64.Idx → EReal) shapeCasts_S64_S1x64 := by
  show StableHlo.after hostOps0 (fun b => m (c, b)) (Proc.devRef .tc main_v0) = _
  after_results
  try rfl

theorem V_v1 (c : Dev nD) : (V m c main_v1 : S1x64.Idx → EReal)
    = shapeCast S1x64 (m ((c : Thread nD τ).loc main_arg4) : S64.Idx → EReal) shapeCasts_S64_S1x64 := by
  show StableHlo.after hostOps0 (fun b => m (c, b)) (Proc.devRef .tc main_v1) = _
  after_results
  try rfl

theorem V_v2 (c : Dev nD) : (V m c main_v2 : S1x64.Idx → EReal)
    = shapeCast S1x64 (m ((c : Thread nD τ).loc main_arg5) : S64x1.Idx → EReal) shapeCasts_S64x1_S1x64 := by
  show StableHlo.after hostOps0 (fun b => m (c, b)) (Proc.devRef .tc main_v2) = _
  after_results
  try rfl

theorem V_v4 (c : Dev nD) : (V m c main_v4 : S64x64.Idx → EReal)
    = truncf (F := Ideal) .bf16 (transpose S64x64 [1, 0] (m ((c : Thread nD τ).loc main_arg3) : S64x64.Idx → EReal) transposes_S64x64_S64x64_1_0) bitsLt_bf16_f32 := by
  show StableHlo.after hostOps0 (fun b => m (c, b)) (Proc.devRef .tc main_v4) = _
  after_results
  try rfl

theorem V_v7 (c : Dev nD) : (V m c main_v7 : S64x32.Idx → EReal)
    = truncf (F := Ideal) .bf16 (transpose S64x32 [1, 0] (extractStridedSlice S32x64 ![0, 0] (m ((c : Thread nD τ).loc main_arg1) : S64x64.Idx → EReal) slices_S64x64_S32x64_0_0) transposes_S32x64_S64x32_1_0) bitsLt_bf16_f32 := by
  show StableHlo.after hostOps0 (fun b => m (c, b)) (Proc.devRef .tc main_v7) = _
  after_results
  try rfl

/-! ## The blocks -/

/-- The printed index maps over the grid: the batch and the output move one block per point, every weight window
    stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Block `t` of the batch is rows `4096·t …` of the first argument. -/
theorem iblk0_apply (c : Dev nD) (t : Fin cfg0.N) (a : Fin 4096) (b : Fin 64) (R : Fin 262144) (hR : R.val = 4096 * t.val + a.val) :
    (iblk m c 0 t : Vec Ideal S4096x64 .f32) (ix2 a b) = (m ((c : Thread nD τ).loc main_arg0) : S262144x64.Idx → EReal) (ix2 R b) := by
  obtain ⟨e0, e1, -⟩ := idx_facts t
  unfold iblk
  rw [View.read_apply, ← V_main_arg0 m c]
  show V m c main_arg0 _ = V m c main_arg0 _
  refine congrArg (V m c main_arg0) (funext fun ax => Fin.ext ?_)
  match ax with
  | ⟨0, _⟩ => show win0_0.index t (0 : Fin 2) * 4096 + 1 * a.val = R.val; omega
  | ⟨1, _⟩ => show win0_0.index t (1 : Fin 2) * 64 + 1 * b.val = b.val; omega

theorem iblk1_apply (c : Dev nD) (t : Fin cfg0.N) (a b : Fin 64) :
    (iblk m c 1 t : Vec Ideal S64x64 .f32) (ix2 a b) = (m ((c : Thread nD τ).loc main_arg1) : S64x64.Idx → EReal) (ix2 a b) := by
  obtain ⟨-, -, e0, e1, -⟩ := idx_facts t
  unfold iblk
  rw [View.read_apply, ← V_main_arg1 m c]
  show V m c main_arg1 _ = V m c main_arg1 _
  refine congrArg (V m c main_arg1) (funext fun ax => Fin.ext ?_)
  match ax with
  | ⟨0, _⟩ => show win0_1.index t (0 : Fin 2) * 64 + 1 * a.val = a.val; omega
  | ⟨1, _⟩ => show win0_1.index t (1 : Fin 2) * 64 + 1 * b.val = b.val; omega

theorem iblk2_apply (c : Dev nD) (t : Fin cfg0.N) (b : Fin 64) :
    (iblk m c 2 t : Vec Ideal S1x64 .f32) (ix2 (0 : Fin 1) b) = (m ((c : Thread nD τ).loc main_arg2) : S64.Idx → EReal) (ix1 b) := by
  obtain ⟨-, -, -, -, e0, e1, -⟩ := idx_facts t
  unfold iblk
  rw [View.read_apply]
  refine Eq.trans (b := (V m c main_v0 : S1x64.Idx → EReal) (ix2 (0 : Fin 1) b)) ?_ ?_
  · show V m c main_v0 _ = V m c main_v0 _
    refine congrArg (V m c main_v0) (funext fun ax => Fin.ext ?_)
    match ax with
    | ⟨0, _⟩ => show win0_2.index t (0 : Fin 2) * 1 + 1 * 0 = 0; omega
    | ⟨1, _⟩ => show win0_2.index t (1 : Fin 2) * 64 + 1 * b.val = b.val; omega
  · rw [V_v0, shapeCast_a_1a_apply]

theorem iblk3_apply (c : Dev nD) (t : Fin cfg0.N) (a b : Fin 64) :
    (iblk m c 3 t : Vec Ideal S64x64 .f32) (ix2 a b) = (m ((c : Thread nD τ).loc main_arg3) : S64x64.Idx → EReal) (ix2 a b) := by
  obtain ⟨-, -, -, -, -, -, e0, e1, -⟩ := idx_facts t
  unfold iblk
  rw [View.read_apply, ← V_main_arg3 m c]
  show V m c main_arg3 _ = V m c main_arg3 _
  refine congrArg (V m c main_arg3) (funext fun ax => Fin.ext ?_)
  match ax with
  | ⟨0, _⟩ => show win0_3.index t (0 : Fin 2) * 64 + 1 * a.val = a.val; omega
  | ⟨1, _⟩ => show win0_3.index t (1 : Fin 2) * 64 + 1 * b.val = b.val; omega

theorem iblk4_apply (c : Dev nD) (t : Fin cfg0.N) (b : Fin 64) :
    (iblk m c 4 t : Vec Ideal S1x64 .f32) (ix2 (0 : Fin 1) b) = (m ((c : Thread nD τ).loc main_arg4) : S64.Idx → EReal) (ix1 b) := by
  obtain ⟨-, -, -, -, -, -, -, -, e0, e1, -⟩ := idx_facts t
  unfold iblk
  rw [View.read_apply]
  refine Eq.trans (b := (V m c main_v1 : S1x64.Idx → EReal) (ix2 (0 : Fin 1) b)) ?_ ?_
  · show V m c main_v1 _ = V m c main_v1 _
    refine congrArg (V m c main_v1) (funext fun ax => Fin.ext ?_)
    match ax with
    | ⟨0, _⟩ => show win0_4.index t (0 : Fin 2) * 1 + 1 * 0 = 0; omega
    | ⟨1, _⟩ => show win0_4.index t (1 : Fin 2) * 64 + 1 * b.val = b.val; omega
  · rw [V_v1, shapeCast_a_1a_apply]

theorem iblk5_apply (c : Dev nD) (t : Fin cfg0.N) (b : Fin 64) :
    (iblk m c 5 t : Vec Ideal S1x64 .f32) (ix2 (0 : Fin 1) b) = (m ((c : Thread nD τ).loc main_arg5) : S64x1.Idx → EReal) (ix2 b (0 : Fin 1)) := by
  obtain ⟨-, -, -, -, -, -, -, -, -, -, e0, e1, -⟩ := idx_facts t
  unfold iblk
  rw [View.read_apply]
  refine Eq.trans (b := (V m c main_v2 : S1x64.Idx → EReal) (ix2 (0 : Fin 1) b)) ?_ ?_
  · show V m c main_v2 _ = V m c main_v2 _
    refine congrArg (V m c main_v2) (funext fun ax => Fin.ext ?_)
    match ax with
    | ⟨0, _⟩ => show win0_5.index t (0 : Fin 2) * 1 + 1 * 0 = 0; omega
    | ⟨1, _⟩ => show win0_5.index t (1 : Fin 2) * 64 + 1 * b.val = b.val; omega
  · rw [V_v2]
    refine shapeCast_apply _ _ (ix2 (0 : Fin 1) b) (ix2 b (0 : Fin 1)) ?_
    rw [Shape.rowMajor_val_two, Shape.rowMajor_val_two]
    show b.val * 1 + 0 = 0 * 64 + b.val
    omega

theorem iblk6_apply (c : Dev nD) (t : Fin cfg0.N) (a b : Fin 64) :
    (iblk m c 6 t : Vec Ideal S64x64 .bf16) (ix2 a b) = (m ((c : Thread nD τ).loc main_arg3) : S64x64.Idx → EReal) (ix2 b a) := by
  obtain ⟨-, -, -, -, -, -, -, -, -, -, -, -, e0, e1, -⟩ := idx_facts t
  unfold iblk
  rw [View.read_apply]
  refine Eq.trans (b := (V m c main_v4 : S64x64.Idx → EReal) (ix2 a b)) ?_ ?_
  · show V m c main_v4 _ = V m c main_v4 _
    refine congrArg (V m c main_v4) (funext fun ax => Fin.ext ?_)
    match ax with
    | ⟨0, _⟩ => show win0_6.index t (0 : Fin 2) * 64 + 1 * a.val = a.val; omega
    | ⟨1, _⟩ => show win0_6.index t (1 : Fin 2) * 64 + 1 * b.val = b.val; omega
  · rw [V_v4, truncf_apply, transpose_ix2_apply]

theorem iblk7_apply (c : Dev nD) (t : Fin cfg0.N) (a : Fin 64) (j : Fin 32) :
    (iblk m c 7 t : Vec Ideal S64x32 .bf16) (ix2 a j)
      = (m ((c : Thread nD τ).loc main_arg1) : S64x64.Idx → EReal) (ix2 (⟨j.val, Nat.lt_trans j.isLt (by decide)⟩ : Fin 64) a) := by
  obtain ⟨-, -, -, -, -, -, -, -, -, -, -, -, -, -, e0, e1, -⟩ := idx_facts t
  unfold iblk
  rw [View.read_apply]
  refine Eq.trans (b := (V m c main_v7 : S64x32.Idx → EReal) (ix2 a j)) ?_ ?_
  · show V m c main_v7 _ = V m c main_v7 _
    refine congrArg (V m c main_v7) (funext fun ax => Fin.ext ?_)
    match ax with
    | ⟨0, _⟩ => show win0_7.index t (0 : Fin 2) * 64 + 1 * a.val = a.val; omega
    | ⟨1, _⟩ => show win0_7.index t (1 : Fin 2) * 32 + 1 * j.val = j.val; omega
  · rw [V_v7, truncf_apply, transpose_ix2_apply]
    exact slice2_axis0_apply 0 _ _ j a _ (by show j.val = 0 + j.val; omega)

/-! ## What a point writes back, and the array after the run -/

/-- Point `t` writes back block `t` of `G8`. -/
theorem flushed_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S4096x64) hz, View.ld_unit_zero (S := S64x64) hz, View.ld_unit_zero (S := S1x64) hz,
    View.ld_unit_zero (S := S64x32) hz]
  funext y
  obtain ⟨-, -, -, -, -, -, -, -, -, -, -, -, -, -, -, -, e0, e1⟩ := idx_facts t
  have ht : t.val < 64 := Nat.lt_of_lt_of_eq t.isLt N_0
  have hy0 : (y 0).val < 1024 := (y 0).isLt
  have hy1 : (y 1).val < 128 := (y 1).isLt
  have hr : 4 * (y 0).val + (y 1).val / 32 < 4096 := by omega
  refine (Body.pay_apply (iblk m c 0 t) (iblk m c 1 t) (iblk m c 2 t) (iblk m c 3 t) (iblk m c 4 t) (iblk m c 5 t) (iblk m c 6 t) (iblk m c 7 t)
    (⟨(y 0).val, hy0⟩ : Fin 1024) (⟨(y 1).val, hy1⟩ : Fin 128) (⟨4 * (y 0).val + (y 1).val / 32, hr⟩ : Fin 4096) (⟨(y 1).val % 32, Nat.mod_lt _ (by decide)⟩ : Fin 32) rfl rfl).trans ?_
  rw [View.read_apply]
  have hR : 4 * (t.val * 1024 + (y 0).val) + (y 1).val / 32 < 262144 := by omega
  refine Eq.trans ?_ (Eq.symm (b := Gm m c (ix2 (⟨4 * (t.val * 1024 + (y 0).val) + (y 1).val / 32, hR⟩ : Fin 262144) (⟨(y 1).val % 32, Nat.mod_lt _ (by decide)⟩ : Fin 32))) ?_)
  · unfold Gm
    rw [G_apply]
    have E0 : (fun p' => (iblk m c 0 t : Vec Ideal S4096x64 .f32) (ix2 (⟨4 * (y 0).val + (y 1).val / 32, hr⟩ : Fin 4096) p'))
        = fun p' => (m ((c : Thread nD τ).loc main_arg0) : S262144x64.Idx → EReal) (ix2 (⟨4 * (t.val * 1024 + (y 0).val) + (y 1).val / 32, hR⟩ : Fin 262144) p') :=
      funext fun p' => iblk0_apply m c t _ p' _ (by show 4 * (t.val * 1024 + (y 0).val) + (y 1).val / 32 = 4096 * t.val + (4 * (y 0).val + (y 1).val / 32); omega)
    have E1 : (fun p' l => (iblk m c 1 t : Vec Ideal S64x64 .f32) (ix2 p' l))
        = fun p' l => (m ((c : Thread nD τ).loc main_arg1) : S64x64.Idx → EReal) (ix2 p' l) :=
      funext fun p' => funext fun l => iblk1_apply m c t p' l
    have E2 : (fun l => (iblk m c 2 t : Vec Ideal S1x64 .f32) (ix2 (0 : Fin 1) l))
        = fun l => (m ((c : Thread nD τ).loc main_arg2) : S64.Idx → EReal) (ix1 l) :=
      funext fun l => iblk2_apply m c t l
    have E3 : (fun p' l => (iblk m c 3 t : Vec Ideal S64x64 .f32) (ix2 p' l))
        = fun p' l => (m ((c : Thread nD τ).loc main_arg3) : S64x64.Idx → EReal) (ix2 p' l) :=
      funext fun p' => funext fun l => iblk3_apply m c t p' l
    have E4 : (fun l => (iblk m c 4 t : Vec Ideal S1x64 .f32) (ix2 (0 : Fin 1) l))
        = fun l => (m ((c : Thread nD τ).loc main_arg4) : S64.Idx → EReal) (ix1 l) :=
      funext fun l => iblk4_apply m c t l
    have E5 : (fun l => (iblk m c 5 t : Vec Ideal S1x64 .f32) (ix2 (0 : Fin 1) l))
        = fun l => (m ((c : Thread nD τ).loc main_arg5) : S64x1.Idx → EReal) (ix2 l (0 : Fin 1)) :=
      funext fun l => iblk5_apply m c t l
    have E6 : (fun i k => (iblk m c 6 t : Vec Ideal S64x64 .bf16) (ix2 i k))
        = fun i k => (m ((c : Thread nD τ).loc main_arg3) : S64x64.Idx → EReal) (ix2 k i) :=
      funext fun i => funext fun k => iblk6_apply m c t i k
    have E7 : (fun k => (iblk m c 7 t : Vec Ideal S64x32 .bf16) (ix2 k (⟨(y 1).val % 32, Nat.mod_lt _ (by decide)⟩ : Fin 32)))
        = fun k => (m ((c : Thread nD τ).loc main_arg1) : S64x64.Idx → EReal) (ix2 (⟨(y 1).val % 32, Nat.lt_trans (Nat.mod_lt _ (by decide)) (by decide)⟩ : Fin 64) k) :=
      funext fun k => iblk7_apply m c t k _
    rw [E0, E1, E2, E3, E4, E5, E6, E7]
  · unfold G8
    have h0 : ((((cfg0.win 8).blk t).view.emb y) 0).val = t.val * 1024 + (y 0).val := by
      show win0_8.index t (0 : Fin 2) * 1024 + 1 * (y 0).val = _; omega
    have h1 : ((((cfg0.win 8).blk t).view.emb y) 1).val = (y 1).val := by
      show win0_8.index t (1 : Fin 2) * 128 + 1 * (y 1).val = _; omega
    refine congrArg (Gm m c) (congrArg₂ (ix2 (n0 := 262144) (n1 := 32)) (Fin.ext ?_) (Fin.ext ?_))
    · show 4 * ((((cfg0.win 8).blk t).view.emb y) 0).val + ((((cfg0.win 8).blk t).view.emb y) 1).val / 32 = _
      rw [h0, h1]
    · show ((((cfg0.win 8).blk t).view.emb y) 1).val % 32 = _
      rw [h1]

/-- An index of the output array is in point `t`'s block iff each coordinate is in the block's range. -/
theorem mem_blk (t : Fin cfg0.N) (i : S65536x128.Idx) :
    i ∈ ((cfg0.win 8).blk t).view.set ↔ ∀ a : Fin 2, win0_8.index t a * S1024x128.size a ≤ (i a).val
      ∧ (i a).val < win0_8.index t a * S1024x128.size a + S1024x128.size a := by
  show i ∈ ((View.whole main_v8).slice (win0_8.rect t)).set ↔ _
  rw [View.set_slice_whole, Rect.mem_set_unit]
  exact Iff.rfl

/-- The 64 blocks tile the output array: row `R` is in block `R / 1024`. -/
theorem cover (i : S65536x128.Idx) : ∃ t : Fin cfg0.N, (cfg0.win 8).flush t = true ∧ i ∈ ((cfg0.win 8).blk t).view.set := by
  have hi0 : (i 0).val < 65536 := (i 0).isLt
  have hi1 : (i 1).val < 128 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 128 ≤ (i 1).val ∧ (i 1).val < win0_8.index t (1 : Fin 2) * 128 + 128
    omega

/-- The region's output array after the run. -/
theorem final8 (c : Dev nD) : (dats m 0 c).arrAt 8 cfg0.N = G8 m c :=
  (dats m 0 c).arrAt_eq_of_cover 8 (G8 m c) (fun t _ => flushed_eq m c t) cover

/-- The program's result: the host reads the [65536, 128] array as [262144, 32]. -/
theorem tail_eq (c : Dev nD) : Pipeline.afterTail₀ cfgs (dats m) 0 (V0 m) [hostOps1] c main_v9 = Gm m c := by
  unfold Pipeline.afterTail₀
  show StableHlo.after hostOps1 _ (Proc.devRef .tc main_v9) = _
  after_results
  have hW : Pipeline.withArrays (cfgs 0).spec c (V0 m c) (fun w => (dats m 0 c).arrAt w (cfgs 0).N) (Proc.devRef .tc main_v8) = G8 m c :=
    (Pipeline.withArrays_arr spec0 launch0.win.arr_inj c _ _ 8).trans (final8 m c)
  rw [hW]
  funext i
  obtain ⟨R, j, rfl⟩ : ∃ (R : Fin 262144) (j : Fin 32), i = ix2 R j := ⟨i 0, i 1, eq_ix2 i⟩
  show shapeCast S262144x32 (G8 m c) shapeCasts_S65536x128_S262144x32 (ix2 R j) = Gm m c (ix2 R j)
  have hR : R.val < 262144 := R.isLt
  have hj : j.val < 32 := j.isLt
  refine (shapeCast_apply _ _ (ix2 R j) (ix2 (⟨R.val / 4, by omega⟩ : Fin 65536) (⟨R.val % 4 * 32 + j.val, by omega⟩ : Fin 128)) (by
    rw [Shape.rowMajor_val_two, Shape.rowMajor_val_two]
    show R.val / 4 * 128 + (R.val % 4 * 32 + j.val) = R.val * 32 + j.val
    omega)).trans ?_
  unfold G8
  refine congrArg (Gm m c) (congrArg₂ (ix2 (n0 := 262144) (n1 := 32)) (Fin.ext ?_) (Fin.ext ?_))
  · show 4 * (R.val / 4) + (R.val % 4 * 32 + j.val) / 32 = R.val
    omega
  · show (R.val % 4 * 32 + j.val) % 32 = j.val
    omega

/-- The idealized kernel's run: its result buffer ends at `G` of the arguments, which end unchanged. -/
theorem run : θ_run defs (onTc (τ := τ) (main (F := Ideal))) ⟨m, fun _ => 0, ρ⟩ fun r => ∀ c : Dev nD,
      r.2.mem ((c.tc : Thread nD τ).loc main_v9) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Hand

end
-- ==== Proof.RefValue.lean ====
/-
  The reference's result, read one operation at a time, is `Cert.MlpGrad.G` of its arguments.

  Row by row the reference forms `z1 = x·W1 + b1` (the row is first split into its two halves and joined again,
  which changes nothing), `relu z1 = max z1 0`, `z2`, the gradient `select (z2 > 0) (1·W3ᵀ) 0`, pulls it back through
  `W2` and `W1` by contracting their second axes, keeps the first 32 coordinates, and subtracts the result from
  zero.  Each `select` on a comparison with zero and the maximum are the indicator `gate`; the contraction of the
  all-ones column with `W3` over an axis of length one is `W3` itself.
-/
import proofs.«125662_j52372831208004_2_alg».proof.Proof.Gen.ReferenceIdeal.Read
import proofs.«125662_j52372831208004_2_alg».proof.Proof.Spec

noncomputable section

namespace Cert.ReferenceIdeal.RefValue

open Cert.ReferenceIdeal Cert.ReferenceIdeal.Read Idealize.ShloMosaic Idealize.ShloMosaic.ValueIdx Cert.MlpGrad

variable (X : (⟨S262144x64, .f32⟩ : BufTy).Contents (Elt Ideal)) (W1 : (⟨S64x64, .f32⟩ : BufTy).Contents (Elt Ideal))
  (b1 : (⟨S64, .f32⟩ : BufTy).Contents (Elt Ideal)) (W2 : (⟨S64x64, .f32⟩ : BufTy).Contents (Elt Ideal))
  (b2 : (⟨S64, .f32⟩ : BufTy).Contents (Elt Ideal)) (W3 : (⟨S64x1, .f32⟩ : BufTy).Contents (Elt Ideal))

/-- The row `r` of the batch. -/
abbrev xrow (r : Fin 262144) : Fin 64 → EReal := fun p => X (ix2 r p)
abbrev w1 : Fin 64 → Fin 64 → EReal := fun p l => W1 (ix2 p l)
abbrev w2 : Fin 64 → Fin 64 → EReal := fun p l => W2 (ix2 p l)
abbrev bb1 : Fin 64 → EReal := fun l => b1 (ix1 l)
abbrev bb2 : Fin 64 → EReal := fun l => b2 (ix1 l)
abbrev w3 : Fin 64 → EReal := fun l => W3 (ix2 l (0 : Fin 1))

/-- Splitting a row into halves and joining them again gives the row back. -/
theorem v2_apply (r : Fin 262144) (p : Fin 64) : val_main_v2 (F := Ideal) X (ix2 r p) = X (ix2 r p) := by
  unfold val_main_v2
  by_cases hp : p.val < 32
  · refine (concatenate_pair_apply_left (t := S262144x64) (s₁ := S262144x32) (s₂ := S262144x32) (1 : Fin 2) _ _ _ (ix2 r p) rfl
      (ix2 r (⟨p.val, hp⟩ : Fin 32)) (fun b => by match b with | ⟨0, _⟩ => rfl | ⟨1, _⟩ => rfl)).trans ?_
    rw [val_main_v0_apply]
    exact congrArg X (funext fun a => by match a with | ⟨0, _⟩ => rfl | ⟨1, _⟩ => rfl)
  · have hp' : 32 ≤ p.val := Nat.not_lt.mp hp
    have hlt : p.val - 32 < 32 := by have := p.isLt; omega
    refine (concatenate_pair_apply_right (t := S262144x64) (s₁ := S262144x32) (s₂ := S262144x32) (1 : Fin 2) _ _ _ (ix2 r p) rfl rfl
      (ix2 r (⟨p.val - 32, hlt⟩ : Fin 32)) (fun b hb => by
        match b with
        | ⟨0, _⟩ => rfl
        | ⟨1, _⟩ => exact absurd rfl hb) (by show (p.val - 32) + 32 = p.val; omega)).trans ?_
    rw [val_main_v1_apply]
    exact congrArg X (funext fun a => by
      match a with
      | ⟨0, _⟩ => rfl
      | ⟨1, _⟩ => exact Fin.ext (by show 32 + (p.val - 32) = p.val; omega))

/-- The first pre-activation. -/
theorem v7_apply (r : Fin 262144) (l : Fin 64) :
    val_main_v7 (F := Ideal) X W1 b1 (ix2 r l) = lin (xrow X r) (w1 W1) (bb1 b1) l := by
  rw [val_main_v7_apply, val_main_v4_apply, val_main_v6_apply, val_main_v5_apply]
  refine congrArg₂ (· + ·) (Finset.sum_congr rfl fun p _ => ?_) ?_
  · rw [show lidx_main_v4 (ix2 r l) p = ix2 r p from funext fun a => by match a with | ⟨0, _⟩ => rfl | ⟨1, _⟩ => rfl,
      show ridx_main_v4 (ix2 r l) p = ix2 p l from funext fun a => by match a with | ⟨0, _⟩ => rfl | ⟨1, _⟩ => rfl,
      v2_apply]
  · exact congrArg b1 (funext fun a => by match a with | ⟨0, _⟩ => rfl)

/-- The first hidden layer: the maximum with zero is the indicator applied to the pre-activation. -/
theorem v8_apply (r : Fin 262144) (l : Fin 64) :
    val_main_v8 (F := Ideal) X W1 b1 (ix2 r l) = gate (lin (xrow X r) (w1 W1) (bb1 b1) l) (lin (xrow X r) (w1 W1) (bb1 b1) l) := by
  rw [val_main_v8_apply, v7_apply, val_main_call0_v0_apply, val_main_call0_cst_apply]
  show max _ (Ideal.ofBits .f32 0x00000000#32) = _
  rw [Ideal.ofBits_zero_f32]
  exact max_gate _

/-- The second pre-activation. -/
theorem v15_apply (r : Fin 262144) (i : Fin 64) :
    val_main_v15 (F := Ideal) X W1 b1 W2 b2 (ix2 r i) = z2 (xrow X r) (w1 W1) (bb1 b1) (w2 W2) (bb2 b2) i := by
  rw [val_main_v15_apply, val_main_v12_apply, val_main_v14_apply, val_main_v13_apply]
  refine congrArg₂ (· + ·) (Finset.sum_congr rfl fun p _ => ?_) ?_
  · rw [show lidx_main_v12 (ix2 r i) p = ix2 r p from funext fun a => by match a with | ⟨0, _⟩ => rfl | ⟨1, _⟩ => rfl,
      show ridx_main_v12 (ix2 r i) p = ix2 p i from funext fun a => by match a with | ⟨0, _⟩ => rfl | ⟨1, _⟩ => rfl,
      v8_apply]
  · exact congrArg b2 (funext fun a => by match a with | ⟨0, _⟩ => rfl)

/-- The gradient of the output layer gated by the second layer's sign. -/
theorem v28_apply (r : Fin 262144) (i : Fin 64) :
    val_main_v28 (F := Ideal) X W1 b1 W2 b2 W3 (ix2 r i)
      = gate (z2 (xrow X r) (w1 W1) (bb1 b1) (w2 W2) (bb2 b2) i) (w3 W3 i) := by
  rw [val_main_v28_apply, val_main_v18_apply, v15_apply, val_main_v17_apply, val_main_cst_2_apply,
    val_main_v26_apply, val_main_v27_apply, val_main_cst_6_apply, Fin.sum_univ_one,
    val_main_v25_apply, val_main_cst_5_apply]
  show Scalar.select (Ideal.cmp .ogt _ (Ideal.ofBits .f32 0x00000000#32)) (Ideal.ofBits .f32 0x3F800000#32 * _) (Ideal.ofBits .f32 0x00000000#32) = _
  rw [Ideal.ofBits_zero_f32, ofBits_one, one_mul, select_gate]
  exact congrArg (gate _) (congrArg W3 (funext fun a => by match a with | ⟨0, _⟩ => rfl | ⟨1, _⟩ => rfl))

/-- Pulled back through the second layer. -/
theorem v29_apply (r : Fin 262144) (k : Fin 64) :
    val_main_v29 (F := Ideal) X W1 b1 W2 b2 W3 (ix2 r k)
      = back1 (xrow X r) (w1 W1) (bb1 b1) (w2 W2) (bb2 b2) (w3 W3) (fun i' k' => W2 (ix2 k' i')) k := by
  rw [val_main_v29_apply]
  refine Finset.sum_congr rfl fun i _ => ?_
  rw [show lidx_main_v29 (ix2 r k) i = ix2 r i from funext fun a => by match a with | ⟨0, _⟩ => rfl | ⟨1, _⟩ => rfl,
    show ridx_main_v29 (ix2 r k) i = ix2 k i from funext fun a => by match a with | ⟨0, _⟩ => rfl | ⟨1, _⟩ => rfl,
    v28_apply]

/-- Gated by the first layer's sign. -/
theorem v31_apply (r : Fin 262144) (k : Fin 64) :
    val_main_v31 (F := Ideal) X W1 b1 W2 b2 W3 (ix2 r k)
      = gate (lin (xrow X r) (w1 W1) (bb1 b1) k)
          (back1 (xrow X r) (w1 W1) (bb1 b1) (w2 W2) (bb2 b2) (w3 W3) (fun i' k' => W2 (ix2 k' i')) k) := by
  rw [val_main_v31_apply, val_main_v10_apply, v7_apply, val_main_v9_apply, val_main_cst_0_apply, v29_apply,
    val_main_v30_apply, val_main_cst_7_apply]
  show Scalar.select (Ideal.cmp .ogt _ (Ideal.ofBits .f32 0x00000000#32)) _ (Ideal.ofBits .f32 0x00000000#32) = _
  rw [Ideal.ofBits_zero_f32, select_gate]

/-- The reference's result is `G` of its arguments. -/
theorem result_eq : val_main_v77 (F := Ideal) X W1 b1 W2 b2 W3 = G X W1 b1 W2 b2 W3 := by
  funext i
  obtain ⟨r, j, rfl⟩ : ∃ (r : Fin 262144) (j : Fin 32), i = ix2 r j := ⟨i 0, i 1, eq_ix2 i⟩
  rw [G_apply, val_main_v77_apply, val_main_v76_apply, val_main_cst_23_apply, val_main_v33_apply, val_main_v32_apply]
  show Ideal.ofBits .f32 0x00000000#32 - _ = _
  rw [Ideal.ofBits_zero_f32]
  unfold rowOut
  refine congrArg (0 - ·) (Finset.sum_congr rfl fun k _ => ?_)
  rw [show lidx_main_v32 (idx_main_v33 (ix2 r j)) k = ix2 r k from funext fun a => by match a with | ⟨0, _⟩ => rfl | ⟨1, _⟩ => rfl,
    show ridx_main_v32 (idx_main_v33 (ix2 r j)) k = ix2 (⟨j.val, Nat.lt_trans j.isLt (by decide)⟩ : Fin 64) k from
      funext fun a => by match a with | ⟨0, _⟩ => rfl | ⟨1, _⟩ => rfl,
    v31_apply]

end Cert.ReferenceIdeal.RefValue

end
-- ==== Proof.lean ====
/-
  The five claims of this certificate.

  The kernel and the reference both compute, for every batch row `x = [q; q̇]` of a three-layer ReLU network `L`, the
  Euler–Lagrange residual `d/dt ∂L/∂q̇ − ∂L/∂q` in which the second-order term is identically zero (the derivative of
  `relu` is the indicator of a positive argument, and the indicator is not differentiated again): the result is
  `0 − ∂L/∂q`, the function `Cert.MlpGrad.G` of Proof/Spec.lean.  The kernel obtains it by one forward and one backward
  pass written out by hand on blocks of 4096 rows (Proof/KernelBody.lean, Proof/KernelValue.lean); the reference by
  automatic differentiation on the whole batch (Proof/RefValue.lean).  On extended reals the two agree entry by entry
  with no assumption on the inputs: every step is a sum of products, an indicator, or a change of layout.

  The three frames are the generated ones (the reference's is its generated run with the result dropped); the ideal
  pass rewrote nothing, so the kernel's idealization is its own text and `preserves` is trivial.
-/
import proofs.«125662_j52372831208004_2_alg».proof.Defs
import proofs.«125662_j52372831208004_2_alg».proof.Proof.Gen.Kernel
import proofs.«125662_j52372831208004_2_alg».proof.Proof.Gen.Kernel.Skeleton
import proofs.«125662_j52372831208004_2_alg».proof.Proof.Gen.Kernel.Launch
import proofs.«125662_j52372831208004_2_alg».proof.Proof.Gen.Kernel.Points
import proofs.«125662_j52372831208004_2_alg».proof.Proof.Gen.Kernel.Frame
import proofs.«125662_j52372831208004_2_alg».proof.Proof.Gen.KernelIdeal
import proofs.«125662_j52372831208004_2_alg».proof.Proof.Gen.KernelIdeal.Skeleton
import proofs.«125662_j52372831208004_2_alg».proof.Proof.Gen.KernelIdeal.Launch
import proofs.«125662_j52372831208004_2_alg».proof.Proof.Gen.KernelIdeal.Points
import proofs.«125662_j52372831208004_2_alg».proof.Proof.Gen.KernelIdeal.Frame
import proofs.«125662_j52372831208004_2_alg».proof.Proof.Gen.ReferenceIdeal
import proofs.«125662_j52372831208004_2_alg».proof.Proof.Gen.Pre_finite_inputs
import proofs.«125662_j52372831208004_2_alg».proof.Proof.Gen.ReferenceIdeal.Run
import proofs.«125662_j52372831208004_2_alg».proof.Proof.Gen.ReferenceIdeal.Read
import proofs.«125662_j52372831208004_2_alg».proof.Proof.Spec
import proofs.«125662_j52372831208004_2_alg».proof.Proof.KernelBody
import proofs.«125662_j52372831208004_2_alg».proof.Proof.KernelValue
import proofs.«125662_j52372831208004_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with `Cert.MlpGrad.G` of the (agreeing) arguments in their result buffers. -/
theorem algebraic : Cert.algebraic_KernelIdeal_ReferenceIdeal := by
  intro m ρ m' ρ' _ hagree
  refine ⟨fun c => Cert.KernelIdeal.Hand.Gm m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v77_eq (F := Ideal) _ _ _ _ _ _).trans ?_
  refine (Cert.ReferenceIdeal.RefValue.result_eq _ _ _ _ _ _).trans ?_
  rw [(hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
